-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S6000 : Shape := ⟨1, ![6000]⟩
abbrev S1024x1 : Shape := ⟨2, ![1024, 1]⟩
abbrev S1 : Shape := ⟨1, ![1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  reducesTo_S6000_S_d0 : S6000.ReducesTo [0] S_
  bcast_S_S6000 : S_.BroadcastsInDim S6000 (![] : Fin 0 → Fin S6000.rank)

variable [Facts]

def fn_part1 {F : FTy → Type} [FloatOps F] (main_arg1 : IVec S6000 32) (main_arg2 : IVec S6000 32) (main_v16 : IVec S_ 1) : IVec S_ 1 :=
  let main_c_5 : IVec S_ 32 := constantI S_ 32 8191#32
  let main_v17 : IVec S6000 32 := broadcastInDim S6000 ![] bcast_S_S6000 main_c_5
  let main_v18 : IVec S6000 1 := cmpi .sle main_arg1 main_v17
  let main_c_6 : IVec S_ 1 := constantI S_ 1 1#1
  let main_v19 : IVec S_ 1 := (fun x v => Host.reduce IntOp.andi x v reducesTo_S6000_S_d0 h_S_) main_v18 main_c_6
  let main_v20 : IVec S_ 1 := andi main_v16 main_v19
  let main_c_7 : IVec S_ 32 := constantI S_ 32 0#32
  let main_v21 : IVec S6000 32 := broadcastInDim S6000 ![] bcast_S_S6000 main_c_7
  let main_v22 : IVec S6000 1 := cmpi .sge main_arg2 main_v21
  let main_c_8 : IVec S_ 1 := constantI S_ 1 1#1
  let main_v23 : IVec S_ 1 := (fun x v => Host.reduce IntOp.andi x v reducesTo_S6000_S_d0 h_S_) main_v22 main_c_8
  let main_v24 : IVec S_ 1 := andi main_v20 main_v23
  main_v24

def fn {F : FTy → Type} [FloatOps F] (main_arg0 : FVec F S8192x1024 .f32) (main_arg1 : IVec S6000 32) (main_arg2 : IVec S6000 32) (main_arg3 : FVec F S1024x1 .f32) (main_arg4 : FVec F S1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1 .f32 := Host.absf main_arg3
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : IVec S6000 1 := cmpi .sle main_arg1 main_arg2
  let main_c_4 : IVec S_ 1 := constantI S_ 1 1#1
  let main_v15 : IVec S_ 1 := (fun x v => Host.reduce IntOp.andi x v reducesTo_S6000_S_d0 h_S_) main_v14 main_c_4
  let main_v16 : IVec S_ 1 := andi main_v13 main_v15
  fn_part1 (F := F) main_arg1 main_arg2 main_v16
-- ==== Kernel.lean ====
abbrev S8192x1024 : Shape := ⟨2, ![8192, 1024]⟩
abbrev S6000 : Shape := ⟨1, ![6000]⟩
abbrev S1024x1 : Shape := ⟨2, ![1024, 1]⟩
abbrev S1 : Shape := ⟨1, ![1]⟩
abbrev S8192x1 : Shape := ⟨2, ![8192, 1]⟩
abbrev S1x1 : Shape := ⟨2, ![1, 1]⟩
abbrev S_ : Shape := ⟨0, ![]⟩
abbrev S1x8192 : Shape := ⟨2, ![1, 8192]⟩
abbrev S144 : Shape := ⟨1, ![144]⟩
abbrev S6144 : Shape := ⟨1, ![6144]⟩
abbrev S6144x1 : Shape := ⟨2, ![6144, 1]⟩
abbrev S6144x1024 : Shape := ⟨2, ![6144, 1024]⟩
abbrev S1536x1 : Shape := ⟨2, ![1536, 1]⟩
abbrev S1024x1024 : Shape := ⟨2, ![1024, 1024]⟩
abbrev S1x1024 : Shape := ⟨2, ![1, 1024]⟩
abbrev S1536x1024 : Shape := ⟨2, ![1536, 1024]⟩
abbrev S1536 : Shape := ⟨1, ![1536]⟩
abbrev S6000x1024 : Shape := ⟨2, ![6000, 1024]⟩

abbrev nBuf : Space → Nat
  | .hbm => 26
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S6000, .i32⟩
  | .hbm, ⟨2, _⟩ => ⟨S6000, .i32⟩
  | .hbm, ⟨3, _⟩ => ⟨S1024x1, .f32⟩
  | .hbm, ⟨4, _⟩ => ⟨S1, .f32⟩
  | .hbm, ⟨5, _⟩ => ⟨S8192x1, .f32⟩
  | .hbm, ⟨6, _⟩ => ⟨S1x1, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S1x8192, .f32⟩
  | .hbm, ⟨15, _⟩ => ⟨S8192x1024, .bf16⟩
  | .hbm, ⟨16, _⟩ => ⟨S_, .i32⟩
  | .hbm, ⟨17, _⟩ => ⟨S144, .i32⟩
  | .hbm, ⟨18, _⟩ => ⟨S6144, .i32⟩
  | .hbm, ⟨19, _⟩ => ⟨S_, .i32⟩
  | .hbm, ⟨20, _⟩ => ⟨S144, .i32⟩
  | .hbm, ⟨21, _⟩ => ⟨S6144, .i32⟩
  | .hbm, ⟨22, _⟩ => ⟨S6144x1, .i32⟩
  | .hbm, ⟨23, _⟩ => ⟨S6144x1, .i32⟩
  | .hbm, ⟨24, _⟩ => ⟨S6144x1024, .f32⟩
  | .hbm, ⟨25, _⟩ => ⟨S6000x1024, .f32⟩
  | .local _ .vmem, ⟨0, _⟩ => ⟨S1536x1, .i32⟩
  | .local _ .vmem, ⟨1, _⟩ => ⟨S1536x1, .i32⟩
  | .local _ .vmem, ⟨2, _⟩ => ⟨S1536x1, .i32⟩
  | .local _ .vmem, ⟨3, _⟩ => ⟨S1536x1, .i32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1536x1024, .f32⟩
  | .local _ .vmem, ⟨9, _⟩ => ⟨S1536x1024, .f32⟩
  | .local _ .vmem, ⟨10, _⟩ => ⟨S1536x1, .f32⟩
  | .local _ .vmem, ⟨11, _⟩ => ⟨S1536x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S_d0_1 : S8192x1.ReducesTo [0, 1] S_
  h_S_ : 0 < S_.numel
  bcast_S_S8192x1 : S_.BroadcastsInDim S8192x1 (![] : Fin 0 → Fin S8192x1.rank)
  shapeCasts_S8192x1_S1x8192 : S8192x1.ShapeCasts S1x8192
  bitsLt_bf16_f32 : FTy.bits .bf16 < FTy.bits .f32
  bcast_S_S144 : S_.BroadcastsInDim S144 (![] : Fin 0 → Fin S144.rank)
  concatenates_S6000_S144_S6144_d0 : Shape.Concatenates [S6000, S144] S6144 0
  shapeCasts_S6144_S6144x1 : S6144.ShapeCasts S6144x1
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x1024_d1_w32 : S1x1024.Iotas .tc 32 [1]
  broadcasts_S1x1024_S1536x1024 : S1x1024.Broadcasts S1536x1024
  broadcasts_S1536x1_S1536x1024 : S1536x1.Broadcasts S1536x1024
  reduces_S1536x1024_S1536 : S1536x1024.Reduces [1] S1536
  shapeCasts_S1536_S1536x1 : S1536.ShapeCasts S1536x1
  slices_S6144x1024_S6000x1024_0_0 : S6144x1024.Slices ![0, 0] S6000x1024
  dot_S8192x1024_S1024x1_S8192x1_1_0_0_1_n_n_wf : DotDims.WF S8192x1024 S1024x1 S8192x1 [1] [0] [0] [1] [] []
  dot_S1536x1024_S1024x1024_S1536x1024_1_0_0_1_n_n_wf : DotDims.WF S1536x1024 S1024x1024 S1536x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x1.size a ≤ S6144x1.size a
  hwx0_0 : ∀ i : grid0.Coords, EltTy.bits .i32 = 32 ∨ (Rect.block (s := S6144x1) S1536x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x1.size a ≤ S6144x1.size a
  hwx0_1 : ∀ i : grid0.Coords, EltTy.bits .i32 = 32 ∨ (Rect.block (s := S6144x1) S1536x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1536x1024.size a ≤ S6144x1024.size a
  hwx0_4 : ∀ i : grid0.Coords, EltTy.bits .f32 = 32 ∨ (Rect.block (s := S6144x1024) S1536x1024.size (cc0_transform_4 i) (hinb0_4 i)).WholeWords (EltTy.packing .f32)

variable [Facts₀]

def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S1536x1024_S1024x1024_S1536x1024_1_0_0_1_n_n : DotDims S1536x1024 S1024x1024 S1536x1024 where
  lhsContracting := [1]
  rhsContracting := [0]
  lhsNonContracting := [0]
  rhsNonContracting := [1]
  lhsBatch := []
  rhsBatch := []
  wf := dot_S1536x1024_S1024x1024_S1536x1024_1_0_0_1_n_n_wf

abbrev win0_0 : Pipeline.Window sig grid0 :=
  Pipeline.Window.ofSpec (Memref.whole main_v14) S1536x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1536x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1536x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S6000 : Shape := ⟨1, ![6000]⟩
abbrev S1024x1 : Shape := ⟨2, ![1024, 1]⟩
abbrev S1 : Shape := ⟨1, ![1]⟩
abbrev S8192 : Shape := ⟨1, ![8192]⟩
abbrev S1x8192 : Shape := ⟨2, ![1, 8192]⟩
abbrev S6000x1 : Shape := ⟨2, ![6000, 1]⟩
abbrev S6000x8192 : Shape := ⟨2, ![6000, 8192]⟩
abbrev S8192x1 : Shape := ⟨2, ![8192, 1]⟩
abbrev S1x1 : Shape := ⟨2, ![1, 1]⟩
abbrev S_ : Shape := ⟨0, ![]⟩
abbrev S6000x1024 : Shape := ⟨2, ![6000, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6000, .i32⟩
  | .hbm, ⟨2, _⟩ => ⟨S6000, .i32⟩
  | .hbm, ⟨3, _⟩ => ⟨S1024x1, .f32⟩
  | .hbm, ⟨4, _⟩ => ⟨S1, .f32⟩
  | .hbm, ⟨5, _⟩ => ⟨S8192, .i32⟩
  | .hbm, ⟨6, _⟩ => ⟨S1x8192, .i32⟩
  | .hbm, ⟨7, _⟩ => ⟨S6000x1, .i32⟩
  | .hbm, ⟨8, _⟩ => ⟨S6000x8192, .i32⟩
  | .hbm, ⟨9, _⟩ => ⟨S6000x8192, .i32⟩
  | .hbm, ⟨10, _⟩ => ⟨S6000x8192, .i1⟩
  | .hbm, ⟨11, _⟩ => ⟨S1x8192, .i32⟩
  | .hbm, ⟨12, _⟩ => ⟨S6000x1, .i32⟩
  | .hbm, ⟨13, _⟩ => ⟨S6000x8192, .i32⟩
  | .hbm, ⟨14, _⟩ => ⟨S6000x8192, .i32⟩
  | .hbm, ⟨15, _⟩ => ⟨S6000x8192, .i1⟩
  | .hbm, ⟨16, _⟩ => ⟨S6000x8192, .i1⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S_, .f32⟩
  | .hbm, ⟨23, _⟩ => ⟨S_, .f32⟩
  | .hbm, ⟨24, _⟩ => ⟨S6000x8192, .f32⟩
  | .hbm, ⟨25, _⟩ => ⟨S6000x8192, .f32⟩
  | .hbm, ⟨26, _⟩ => ⟨S6000x8192, .f32⟩
  | .hbm, ⟨27, _⟩ => ⟨S_, .f32⟩
  | .hbm, ⟨28, _⟩ => ⟨S6000, .f32⟩
  | .hbm, ⟨29, _⟩ => ⟨S_, .f32⟩
  | .hbm, ⟨30, _⟩ => ⟨S6000, .f32⟩
  | .hbm, ⟨31, _⟩ => ⟨S6000, .f32⟩
  | .hbm, ⟨32, _⟩ => ⟨S6000x1, .f32⟩
  | .hbm, ⟨33, _⟩ => ⟨S6000x8192, .f32⟩
  | .hbm, ⟨34, _⟩ => ⟨S6000x8192, .f32⟩
  | .hbm, ⟨35, _⟩ => ⟨S6000x8192, .f32⟩
  | .hbm, ⟨36, _⟩ => ⟨S_, .f32⟩
  | .hbm, ⟨37, _⟩ => ⟨S6000, .f32⟩
  | .hbm, ⟨38, _⟩ => ⟨S6000x1, .f32⟩
  | .hbm, ⟨39, _⟩ => ⟨S6000x8192, .f32⟩
  | .hbm, ⟨40, _⟩ => ⟨S6000x8192, .f32⟩
  | .hbm, ⟨41, _⟩ => ⟨S6000x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S6000_S6000x1_0 : S6000.BroadcastsInDim S6000x1 (![0] : Fin 1 → Fin S6000x1.rank)
  bcast_S1x8192_S6000x8192_0_1 : S1x8192.BroadcastsInDim S6000x8192 (![0, 1] : Fin 2 → Fin S6000x8192.rank)
  bcast_S6000x1_S6000x8192_0_1 : S6000x1.BroadcastsInDim S6000x8192 (![0, 1] : Fin 2 → Fin S6000x8192.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S_S6000x8192 : S_.BroadcastsInDim S6000x8192 (![] : Fin 0 → Fin S6000x8192.rank)
  reducesTo_S6000x8192_S6000_d1 : S6000x8192.ReducesTo [1] S6000
  h_S_ : 0 < S_.numel
  bcast_S_S6000 : S_.BroadcastsInDim S6000 (![] : Fin 0 → Fin S6000.rank)
  dot_S8192x1024_S1024x1_S8192x1_1_0_0_1_n_n_wf : DotDims.WF S8192x1024 S1024x1 S8192x1 [1] [0] [0] [1] [] []
  dot_S6000x8192_S8192x1024_S6000x1024_1_0_0_1_n_n_wf : DotDims.WF S6000x8192 S8192x1024 S6000x1024 [1] [0] [0] [1] [] []

variable [Facts₀]

def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S6000x8192_S8192x1024_S6000x1024_1_0_0_1_n_n : DotDims S6000x8192 S8192x1024 S6000x1024 where
  lhsContracting := [1]
  rhsContracting := [0]
  lhsNonContracting := [0]
  rhsNonContracting := [1]
  lhsBatch := []
  rhsBatch := []
  wf := dot_S6000x8192_S8192x1024_S6000x1024_1_0_0_1_n_n_wf

class Facts : Prop extends Facts₀ where

variable [Facts]
-- ==== Proof.KPieces.lean ====
/-
  What each control case of the kernel body leaves in the two carried accumulators and in the output block, as the
  body's pure terms of the blocks it loads: the first point of a row of tiles stores zeros and adds this tile's
  contribution; a middle point adds this tile's contribution to what the point before left; the last point does the
  same and stores the quotient of the two accumulators into the output block.
-/
import proofs.«115173_j3444563771556_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the row-sum accumulator becomes the old one plus this tile's masked row sums. -/
theorem sB0 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : ¬cond0_0 i) (hc1 : ¬cond0_1 i) (x0 : Vec F S1536x1 .i32) (x1 : Vec F S1536x1 .i32) (x2 : Vec F S1024x1024 .bf16) (x3 : Vec F S1x1024 .f32) (xs0 : Vec F S1536x1 .f32) (xs1 : Vec F S1536x1024 .f32) :
    sout0_B_0 c i arg2 harg2 arg3 harg3 arg4 harg4 arg5 harg5 arg6 harg6 arg7 harg7 arg8 harg8 hc0 hc1 x0 x1 x2 x3 xs0 xs1 = k0_pay6 i x3 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- A middle point: the product accumulator becomes the old one plus this tile's masked product. -/
theorem sB1 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : ¬cond0_0 i) (hc1 : ¬cond0_1 i) (x0 : Vec F S1536x1 .i32) (x1 : Vec F S1536x1 .i32) (x2 : Vec F S1024x1024 .bf16) (x3 : Vec F S1x1024 .f32) (xs0 : Vec F S1536x1 .f32) (xs1 : Vec F S1536x1024 .f32) :
    sout0_B_1 c i arg2 harg2 arg3 harg3 arg4 harg4 arg5 harg5 arg6 harg6 arg7 harg7 arg8 harg8 hc0 hc1 x0 x1 x2 x3 xs0 xs1 = k0_pay1 xs1 (k0_pay7 i x2 x3 x0 x1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- The last point of a row of tiles: the row-sum accumulator, as at a middle point. -/
theorem sC0 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : ¬cond0_0 i) (hc1 : cond0_1 i) (x0 : Vec F S1536x1 .i32) (x1 : Vec F S1536x1 .i32) (x2 : Vec F S1024x1024 .bf16) (x3 : Vec F S1x1024 .f32) (xs0 : Vec F S1536x1 .f32) (xs1 : Vec F S1536x1024 .f32) :
    sout0_C_0 c i arg2 harg2 arg3 harg3 arg4 harg4 arg5 harg5 arg6 harg6 arg7 harg7 arg8 harg8 hc0 hc1 x0 x1 x2 x3 xs0 xs1 = k0_pay6 i x3 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- The last point of a row of tiles: the product accumulator, as at a middle point. -/
theorem sC1 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : ¬cond0_0 i) (hc1 : cond0_1 i) (x0 : Vec F S1536x1 .i32) (x1 : Vec F S1536x1 .i32) (x2 : Vec F S1024x1024 .bf16) (x3 : Vec F S1x1024 .f32) (xs0 : Vec F S1536x1 .f32) (xs1 : Vec F S1536x1024 .f32) :
    sout0_C_1 c i arg2 harg2 arg3 harg3 arg4 harg4 arg5 harg5 arg6 harg6 arg7 harg7 arg8 harg8 hc0 hc1 x0 x1 x2 x3 xs0 xs1 = k0_pay1 xs1 (k0_pay7 i x2 x3 x0 x1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- The last point of a row of tiles: the output block is the product accumulator divided by the row sums. -/
theorem oC4 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : ¬cond0_0 i) (hc1 : cond0_1 i) (x0 : Vec F S1536x1 .i32) (x1 : Vec F S1536x1 .i32) (x2 : Vec F S1024x1024 .bf16) (x3 : Vec F S1x1024 .f32) (xs0 : Vec F S1536x1 .f32) (xs1 : Vec F S1536x1024 .f32) :
    out0_C_4 c i arg2 harg2 arg3 harg3 arg4 harg4 arg5 harg5 arg6 harg6 arg7 harg7 arg8 harg8 hc0 hc1 x0 x1 x2 x3 xs0 xs1 = k0_pay2 (k0_pay1 xs1 (k0_pay7 i x2 x3 x0 x1)) (k0_pay6 i x3 x0 x1 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readCov_unit_zero (S := S1536x1024) _ hz, View.readCov_unit_zero (S := S1536x1) _ hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- The first point of a row of tiles: the row-sum accumulator is this tile's masked row sums added to zero. -/
theorem sA0 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : cond0_0 i) (hc1 : ¬cond0_1 i) (x0 : Vec F S1536x1 .i32) (x1 : Vec F S1536x1 .i32) (x2 : Vec F S1024x1024 .bf16) (x3 : Vec F S1x1024 .f32) :
    sout0_A_0 c i arg2 harg2 arg3 harg3 arg4 harg4 arg5 harg5 arg6 harg6 arg7 harg7 arg8 harg8 hc0 hc1 x0 x1 x2 x3 = k0_pay6 i x3 x0 x1 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1536x1) hz, View.readCov_unit_zero (S := S1536x1) _ hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]
/-- The first point of a row of tiles: the product accumulator is this tile's masked product added to zero. -/
theorem sA1 (c : Dev nD) (i : grid0.Coords) (arg2 : Memref sig .tc .vmem S1536x1 .i32) (harg2 : arg2.IsWhole) (arg3 : Memref sig .tc .vmem S1536x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1536x1024 .f32) (harg6 : arg6.IsWhole) (arg7 : Memref sig .tc .vmem S1536x1 .f32) (harg7 : arg7.IsWhole) (arg8 : Memref sig .tc .vmem S1536x1024 .f32) (harg8 : arg8.IsWhole) (hc0 : cond0_0 i) (hc1 : ¬cond0_1 i) (x0 : Vec F S1536x1 .i32) (x1 : Vec F S1536x1 .i32) (x2 : Vec F S1024x1024 .bf16) (x3 : Vec F S1x1024 .f32) :
    sout0_A_1 c i arg2 harg2 arg3 harg3 arg4 harg4 arg5 harg5 arg6 harg6 arg7 harg7 arg8 harg8 hc0 hc1 x0 x1 x2 x3 = k0_pay1 (k0_pay4 (F := F)) (k0_pay7 i x2 x3 x0 x1) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1536x1024) hz, View.readCov_unit_zero (S := S1536x1024) _ hz]
  simp only [View.readAt_eq_ld, harg2.read_unread, harg3.read_unread, harg4.read_unread, harg5.read_unread, harg7.read_unread, harg8.read_unread,
    View.ld_unit_zero (S := S1536x1) hz, View.ld_unit_zero (S := S1x1024) hz, View.ld_unit_zero (S := S1024x1024) hz,
    View.ld_unit_zero (S := S1536x1024) hz]

end Cert.KernelIdeal.Pieces

end
-- ==== Proof.KPayload.lean ====
/-
  The body's pure terms read at one entry, over the extended reals.  The masked weight of word row r at lane l of
  the tile is the per-subword weight e at that lane when the lane's position lies in the word's span, else zero; one
  tile adds to the row-sum accumulator the sum over its lanes of the masked weights, and to the product accumulator
  the sum over its lanes of masked weight times hidden entry; the output is the quotient of the two accumulators.
-/
import proofs.«115173_j3444563771556_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Pay

open Cert.KernelIdeal Cert.KernelIdeal.Gen Idealize.ShloMosaic.ValueIdx

/-- The position, as a 32-bit word, of lane l of the tile the point's second coordinate names. -/
def posW (i : grid0.Coords) (l : Fin 1024) : BitVec 32 :=
  IntOp.addi (Scalar.muli (BitVec.ofNat 32 (i 1).val) 1024#32) (BitVec.ofNat 32 l.val)

/-- The span test on words: start ≤ position ≤ end, both signed. -/
def inSpanW (p s e : BitVec 32) : BitVec 1 := IntOp.andi (IntOp.cmpi .sge p s) (IntOp.cmpi .sle p e)

/-- A one-column array broadcast along the rows reads, at (r, l), the column at r. -/
theorem bcol_apply {α : Type} (v : S1536x1.Idx → α) (r : Fin 1536) (l : Fin 1024) :
    broadcastTo S1536x1024 v broadcasts_S1536x1_S1536x1024 (ix2 r l) = v (ix2 r (0 : Fin 1)) := by
  refine broadcastTo_apply v _ (ix2 r l) (ix2 r (0 : Fin 1)) fun ax => ?_
  match ax with
  | ⟨0, _⟩ => rfl
  | ⟨1, _⟩ => rfl

/-- The masked weight at (r, l): e at lane l inside the span, zero outside. -/
def wt (i : grid0.Coords) (v5 : Vec Ideal S1x1024 .f32) (v11 v13 : Vec Ideal S1536x1 .i32) (r : Fin 1536) (l : Fin 1024) : EReal :=
  Scalar.select (inSpanW (posW i l) (v11 (ix2 r (0 : Fin 1))) (v13 (ix2 r (0 : Fin 1)))) (v5 (ix2 (0 : Fin 1) l)) (0 : EReal)

theorem pay5_apply (i : grid0.Coords) (v5 : Vec Ideal S1x1024 .f32) (v11 v13 : Vec Ideal S1536x1 .i32)
    (r : Fin 1536) (l : Fin 1024) :
    k0_pay5 (F := Ideal) i v5 v11 v13 (ix2 r l) = wt i v5 v11 v13 r l := by
  unfold k0_pay5
  simp only [select, andi, cmpi, addi, broadcast, bcol_apply, broadcastTo_1b_ab_apply, shapeCast_self, wt, posW, inSpanW]
  have e : iota .tc S1x1024 32 [1] iota_S1x1024_d1_w32 (ix2 (0 : Fin 1) l) = BitVec.ofNat 32 l.val :=
    iota_single_apply .tc S1x1024 32 1 iota_S1x1024_d1_w32 (ix2 (0 : Fin 1) l)
  have z : (FloatOps.ofBits (F := Ideal) .f32 0#32 : EReal) = 0 := Ideal.ofBits_zero_f32
  rw [e, z]

/-- The source index over row r with lane k inserted is (r, k). -/
theorem lift_lane (r : Fin 1536) (k : Fin 1024) :
    reduces_S1536x1024_S1536.lift (ix1 r) k = ix2 r k := by
  funext ax; apply Fin.ext
  match ax with
  | ⟨0, _⟩ => rfl
  | ⟨1, _⟩ => rfl

/-- One tile's update of the row-sum accumulator at row r. -/
theorem pay6_apply (i : grid0.Coords) (v5 : Vec Ideal S1x1024 .f32) (v11 v13 : Vec Ideal S1536x1 .i32)
    (v26 : Vec Ideal S1536x1 .f32) (r : Fin 1536) :
    k0_pay6 (F := Ideal) i v5 v11 v13 v26 (ix2 r (0 : Fin 1)) = v26 (ix2 r (0 : Fin 1)) + ∑ l : Fin 1024, wt i v5 v11 v13 r l := by
  unfold k0_pay6
  simp only [shapeCast_self]
  show v26 (ix2 r (0 : Fin 1)) + shapeCast S1536x1 _ shapeCasts_S1536_S1536x1 (ix2 r (0 : Fin 1)) = _
  congr 1
  refine (shapeCast_apply _ shapeCasts_S1536_S1536x1 (ix2 r (0 : Fin 1)) (ix1 r) ?_).trans ?_
  · rw [Shape.rowMajor_val_one, Shape.rowMajor_val_two]; show r.val = r.val * 1 + 0; omega
  · refine (Ideal.multiReduction_add_single _ _ reduces_S1536x1024_S1536 _ _ (ix1 r)).trans ?_
    exact Finset.sum_congr rfl fun k _ =>
      (congrArg (k0_pay5 (F := Ideal) i v5 v11 v13) (lift_lane r k)).trans (pay5_apply i v5 v11 v13 r k)

theorem lhs_row (j : S1536x1024.Idx) (q : dot_S1536x1024_S1024x1024_S1536x1024_1_0_0_1_n_n.contr.Idx) : (dot_S1536x1024_S1024x1024_S1536x1024_1_0_0_1_n_n.lhsIdx j q 0).val = (j 0).val := by
  unfold DotDims.lhsIdx
  rw [dif_neg (show ¬(0 : Fin S1536x1024.rank) ∈ dot_S1536x1024_S1024x1024_S1536x1024_1_0_0_1_n_n.lhsBatch by decide), dif_pos (show (0 : Fin S1536x1024.rank) ∈ dot_S1536x1024_S1024x1024_S1536x1024_1_0_0_1_n_n.lhsNonContracting by decide)]
  rfl
theorem lhs_lane (j : S1536x1024.Idx) (q : dot_S1536x1024_S1024x1024_S1536x1024_1_0_0_1_n_n.contr.Idx) : (dot_S1536x1024_S1024x1024_S1536x1024_1_0_0_1_n_n.lhsIdx j q 1).val = (q ⟨0, by decide⟩).val :=
  dot_S1536x1024_S1024x1024_S1536x1024_1_0_0_1_n_n.lhsIdx_val_of_single rfl j q
theorem rhs_lane (j : S1536x1024.Idx) (q : dot_S1536x1024_S1024x1024_S1536x1024_1_0_0_1_n_n.contr.Idx) : (dot_S1536x1024_S1024x1024_S1536x1024_1_0_0_1_n_n.rhsIdx j q 0).val = (q ⟨0, by decide⟩).val :=
  dot_S1536x1024_S1024x1024_S1536x1024_1_0_0_1_n_n.rhsIdx_val_of_single rfl j q
theorem rhs_col (j : S1536x1024.Idx) (q : dot_S1536x1024_S1024x1024_S1536x1024_1_0_0_1_n_n.contr.Idx) : (dot_S1536x1024_S1024x1024_S1536x1024_1_0_0_1_n_n.rhsIdx j q 1).val = (j 1).val := by
  unfold DotDims.rhsIdx
  rw [dif_neg (show ¬(1 : Fin S1024x1024.rank) ∈ dot_S1536x1024_S1024x1024_S1536x1024_1_0_0_1_n_n.rhsBatch by decide), dif_pos (show (1 : Fin S1024x1024.rank) ∈ dot_S1536x1024_S1024x1024_S1536x1024_1_0_0_1_n_n.rhsNonContracting by decide)]
  rfl

/-- One tile's contribution to the product accumulator at (r, h). -/
theorem pay7_apply (i : grid0.Coords) (v3 : Vec Ideal S1024x1024 .bf16) (v5 : Vec Ideal S1x1024 .f32)
    (v11 v13 : Vec Ideal S1536x1 .i32) (r : Fin 1536) (h : Fin 1024) :
    k0_pay7 (F := Ideal) i v3 v5 v11 v13 (ix2 r h) = ∑ l : Fin 1024, wt i v5 v11 v13 r l * v3 (ix2 l h) := by
  unfold k0_pay7
  simp only [shapeCast_self, matmul]
  rw [Ideal.matmul_constant_zero_apply, ← Equiv.sum_comp (contrEquiv1 dot_S1536x1024_S1024x1024_S1536x1024_1_0_0_1_n_n 1024 rfl rfl).symm]
  refine Finset.sum_congr rfl fun k _ => ?_
  have hk := contrEquiv1_symm_val dot_S1536x1024_S1024x1024_S1536x1024_1_0_0_1_n_n 1024 rfl rfl k
  have el : dot_S1536x1024_S1024x1024_S1536x1024_1_0_0_1_n_n.lhsIdx (ix2 r h) ((contrEquiv1 dot_S1536x1024_S1024x1024_S1536x1024_1_0_0_1_n_n 1024 rfl rfl).symm k) = ix2 r k := funext fun a => Fin.ext (by
    match a with
    | ⟨0, _⟩ => exact lhs_row _ _
    | ⟨1, _⟩ => exact (lhs_lane _ _).trans hk)
  have er : dot_S1536x1024_S1024x1024_S1536x1024_1_0_0_1_n_n.rhsIdx (ix2 r h) ((contrEquiv1 dot_S1536x1024_S1024x1024_S1536x1024_1_0_0_1_n_n 1024 rfl rfl).symm k) = ix2 k h := funext fun a => Fin.ext (by
    match a with
    | ⟨0, _⟩ => exact (rhs_lane _ _).trans hk
    | ⟨1, _⟩ => exact rhs_col _ _)
  rw [el, er]
  show k0_pay5 i v5 v11 v13 (ix2 r k) * v3 (ix2 k h) = _
  rw [pay5_apply]

/-- The product accumulator's update: old plus this tile's contribution. -/
theorem pay1_apply (v33 : Vec Ideal S1536x1024 .f32) (v35 : FVec Ideal S1536x1024 .f32) (j : S1536x1024.Idx) :
    k0_pay1 (F := Ideal) v33 v35 j = v33 j + v35 j := by
  unfold k0_pay1
  simp only [shapeCast_self]
  rfl

/-- The output: the product accumulator divided by the row sums. -/
theorem pay2_apply (v43 : Vec Ideal S1536x1024 .f32) (v44 : Vec Ideal S1536x1 .f32) (r : Fin 1536) (h : Fin 1024) :
    k0_pay2 (F := Ideal) v43 v44 (ix2 r h) = Ideal.div (v43 (ix2 r h)) (v44 (ix2 r (0 : Fin 1))) := by
  unfold k0_pay2
  show Ideal.div (v43 (ix2 r h)) (broadcastTo S1536x1024 v44 broadcasts_S1536x1_S1536x1024 (ix2 r h)) = _
  rw [bcol_apply]

/-- The stored zeros. -/
theorem pay3_apply (j : S1536x1.Idx) : k0_pay3 (F := Ideal) j = 0 := by
  unfold k0_pay3
  simp only [shapeCast_self]
  exact Ideal.ofBits_zero_f32
theorem pay4_apply (j : S1536x1024.Idx) : k0_pay4 (F := Ideal) j = 0 := by
  unfold k0_pay4
  simp only [shapeCast_self]
  exact Ideal.ofBits_zero_f32

end Cert.KernelIdeal.Pay

end
-- ==== Proof.KAccum.lean ====
/-
  The two carried accumulators after each grid point, in closed form.  The grid runs four rows of word tiles by eight
  subword tiles; point n works on word rows 1536·(n/8) … and subword positions 1024·(n%8) ….  After point n the row-sum
  accumulator holds, for each of its word rows, the sum of the masked weights over every subword position of the tiles
  0 … n%8, and the product accumulator the same sum with each weight multiplied by the hidden entry — by induction on
  the point; the first point of a row of tiles starts both from zero.
-/
import proofs.«115173_j3444563771556_2_alg».proof.Proof.Gen.KernelIdeal.Frame
import proofs.«115173_j3444563771556_2_alg».proof.Proof.KPieces
import proofs.«115173_j3444563771556_2_alg».proof.Proof.KPayload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces Cert.KernelIdeal.Pay Idealize.ShloMosaic.ValueIdx

variable (m : (ℓ : Loc nD τ sig) → Buf (Elt Ideal) ℓ) (c : Dev nD)

/-- The masked weight of word row `row` at subword position `pos`, over the whole arrays. -/
def Wt (ST EN : S6144x1.Idx → BitVec 32) (E : S1x8192.Idx → EReal) (row : Fin 6144) (pos : Fin 8192) : EReal :=
  Scalar.select (inSpanW (BitVec.ofNat 32 pos.val) (ST (ix2 row (0 : Fin 1))) (EN (ix2 row (0 : Fin 1)))) (E (ix2 (0 : Fin 1) pos)) (0 : EReal)

theorem N32 : cfg0.N = 32 := N_0

/-- The word row, in the padded array, of row r of the block at point n. -/
def rowIx (n : ℕ) (hn : n < cfg0.N) (r : Fin 1536) : Fin 6144 := ⟨1536 * (n / 8) + r.val, by have := N32; have := r.isLt; omega⟩
/-- The subword position of lane l of the tile at point n. -/
def posIx (n : ℕ) (l : Fin 1024) : Fin 8192 := ⟨1024 * (n % 8) + l.val, by have := l.isLt; omega⟩

/-- The positions of tile k, and of the tiles up to k. -/
def tile (k : ℕ) : Finset (Fin 8192) := Finset.univ.filter fun p => p.val / 1024 = k
def upto (k : ℕ) : Finset (Fin 8192) := Finset.univ.filter fun p => p.val / 1024 ≤ k

theorem upto_zero : upto 0 = tile 0 := by
  ext p; simp only [upto, tile, Finset.mem_filter, Finset.mem_univ, true_and]; omega
theorem upto_succ (k : ℕ) : upto (k + 1) = upto k ∪ tile (k + 1) := by
  ext p; simp only [upto, tile, Finset.mem_union, Finset.mem_filter, Finset.mem_univ, true_and]; omega
theorem disj (k : ℕ) : Disjoint (upto k) (tile (k + 1)) := by
  rw [Finset.disjoint_left]; intro p; simp only [upto, tile, Finset.mem_filter, Finset.mem_univ, true_and]; omega
theorem upto_seven : upto 7 = Finset.univ := by
  ext p; simp only [upto, Finset.mem_filter, Finset.mem_univ, true_and, iff_true]; have := p.isLt; omega

/-- A sum over the positions of the tile at point n is the sum over the tile's lanes. -/
theorem sum_tile {M : Type} [AddCommMonoid M] (n : ℕ) (g : Fin 8192 → M) :
    ∑ p ∈ tile (n % 8), g p = ∑ l : Fin 1024, g (posIx n l) := by
  have : tile (n % 8) = Finset.univ.image (posIx n) := by
    ext p
    simp only [tile, Finset.mem_filter, Finset.mem_univ, true_and, Finset.mem_image]
    constructor
    · intro h
      refine ⟨⟨p.val % 1024, Nat.mod_lt _ (by norm_num)⟩, Fin.ext ?_⟩
      show 1024 * (n % 8) + p.val % 1024 = p.val
      omega
    · rintro ⟨l, rfl⟩
      show (1024 * (n % 8) + l.val) / 1024 = n % 8
      have := l.isLt; omega
  rw [this, Finset.sum_image]
  intro a _ b _ h
  have := congrArg Fin.val h
  exact Fin.ext (by simp only [posIx] at this; omega)

/-- The printed index maps and grid coordinates, decided over the grid. -/
theorem idx_facts : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ (grid0.coords t (1 : Fin 2)).val = t.val % 8 :=
  (by decide +kernel : ∀ t : Fin grid0.N, _)

/-- The blocks the windows stage at point t, read at an entry, are entries of the whole arrays. -/
theorem blkS (t : Fin cfg0.N) (r : Fin 1536) :
    (iblk m c 0 t : Vec Ideal S1536x1 .i32) (ix2 r (0 : Fin 1)) = V m c main_v14 (ix2 (rowIx t.val t.isLt r) (0 : Fin 1)) := by
  obtain ⟨e0, e1, -⟩ := idx_facts t
  show V m c main_v14 (((cfg0.win 0).blk t).view.emb (ix2 r (0 : Fin 1))) = _
  refine congrArg (V m c main_v14) (funext fun a => Fin.ext ?_)
  match a with
  | ⟨0, _⟩ => show win0_0.index t (0 : Fin 2) * 1536 + 1 * r.val = 1536 * (t.val / 8) + r.val; rw [e0]; omega
  | ⟨1, _⟩ => show win0_0.index t (1 : Fin 2) * 1 + 1 * 0 = 0; rw [e1]
theorem blkE (t : Fin cfg0.N) (r : Fin 1536) :
    (iblk m c 1 t : Vec Ideal S1536x1 .i32) (ix2 r (0 : Fin 1)) = V m c main_v15 (ix2 (rowIx t.val t.isLt r) (0 : Fin 1)) := by
  obtain ⟨-, -, e0, e1, -⟩ := idx_facts t
  show V m c main_v15 (((cfg0.win 1).blk t).view.emb (ix2 r (0 : Fin 1))) = _
  refine congrArg (V m c main_v15) (funext fun a => Fin.ext ?_)
  match a with
  | ⟨0, _⟩ => show win0_1.index t (0 : Fin 2) * 1536 + 1 * r.val = 1536 * (t.val / 8) + r.val; rw [e0]; omega
  | ⟨1, _⟩ => show win0_1.index t (1 : Fin 2) * 1 + 1 * 0 = 0; rw [e1]
theorem blkH (t : Fin cfg0.N) (l h : Fin 1024) :
    (iblk m c 2 t : Vec Ideal S1024x1024 .bf16) (ix2 l h) = V m c main_v9 (ix2 (posIx t.val l) h) := by
  obtain ⟨-, -, -, -, e0, e1, -⟩ := idx_facts t
  show V m c main_v9 (((cfg0.win 2).blk t).view.emb (ix2 l h)) = _
  refine congrArg (V m c main_v9) (funext fun a => Fin.ext ?_)
  match a with
  | ⟨0, _⟩ => show win0_2.index t (0 : Fin 2) * 1024 + 1 * l.val = 1024 * (t.val % 8) + l.val; rw [e0]; omega
  | ⟨1, _⟩ => show win0_2.index t (1 : Fin 2) * 1024 + 1 * h.val = h.val; rw [e1]; omega
theorem blkW (t : Fin cfg0.N) (l : Fin 1024) :
    (iblk m c 3 t : Vec Ideal S1x1024 .f32) (ix2 (0 : Fin 1) l) = V m c main_v8 (ix2 (0 : Fin 1) (posIx t.val l)) := by
  obtain ⟨-, -, -, -, -, -, e0, e1, -⟩ := idx_facts t
  show V m c main_v8 (((cfg0.win 3).blk t).view.emb (ix2 (0 : Fin 1) l)) = _
  refine congrArg (V m c main_v8) (funext fun a => Fin.ext ?_)
  match a with
  | ⟨0, _⟩ => show win0_3.index t (0 : Fin 2) * 1 + 1 * 0 = 0; rw [e0]
  | ⟨1, _⟩ => show win0_3.index t (1 : Fin 2) * 1024 + 1 * l.val = 1024 * (t.val % 8) + l.val; rw [e1]; omega

/-- The position word of lane l at point t is the word of the subword position. -/
theorem posW_eq (t : Fin cfg0.N) (l : Fin 1024) : posW (grid0.coords t) l = BitVec.ofNat 32 (posIx t.val l).val := by
  obtain ⟨-, -, -, -, -, -, -, -, -, -, e⟩ := idx_facts t
  unfold posW
  rw [e]
  apply BitVec.eq_of_toNat_eq
  have hl := l.isLt
  simp only [IntOp.addi, Scalar.muli, IntOp.muli, BitVec.toNat_add, BitVec.toNat_mul, BitVec.toNat_ofNat, posIx]
  omega

/-- The masked weight the body computes at point t is the masked weight over the whole arrays. -/
theorem wt_eq (t : Fin cfg0.N) (r : Fin 1536) (l : Fin 1024) :
    wt (grid0.coords t) (iblk m c 3 t) (iblk m c 0 t) (iblk m c 1 t) r l
      = Wt (V m c main_v14) (V m c main_v15) (V m c main_v8) (rowIx t.val t.isLt r) (posIx t.val l) := by
  unfold wt Wt
  rw [blkS m c t r, blkE m c t r, blkW m c t l, posW_eq t l]

/-- What a first point of a row of tiles leaves in the two accumulators, as the body's terms. -/
theorem outs_A (t : Fin cfg0.N) (h0 : t.val % 8 = 0) :
    (outsAt0 m c t.val t.isLt).2.1 = k0_pay6 (grid0.coords t) (iblk m c 3 t) (iblk m c 0 t) (iblk m c 1 t) (k0_pay3 (F := Ideal))
    ∧ (outsAt0 m c t.val t.isLt).2.2 = k0_pay1 (k0_pay4 (F := Ideal)) (k0_pay7 (grid0.coords t) (iblk m c 2 t) (iblk m c 3 t) (iblk m c 0 t) (iblk m c 1 t)) := by
  have h1 : ¬t.val % 8 = 7 := by omega
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- What a later point leaves in the two accumulators: the body's terms over what the point before left. -/
theorem outs_BC (t : Fin cfg0.N) (h0 : ¬t.val % 8 = 0) :
    (outsAt0 m c t.val t.isLt).2.1 = k0_pay6 (grid0.coords t) (iblk m c 3 t) (iblk m c 0 t) (iblk m c 1 t) (outsAt0 m c (t.val - 1) (Nat.lt_of_le_of_lt (Nat.sub_le _ _) t.isLt)).2.1
    ∧ (outsAt0 m c t.val t.isLt).2.2 = k0_pay1 (outsAt0 m c (t.val - 1) (Nat.lt_of_le_of_lt (Nat.sub_le _ _) t.isLt)).2.2 (k0_pay7 (grid0.coords t) (iblk m c 2 t) (iblk m c 3 t) (iblk m c 0 t) (iblk m c 1 t)) := by
  by_cases h1 : t.val % 8 = 7
  · rw [outsAt0_C m c t h0 h1]
    dsimp only
    exact ⟨sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- What the last point of a row of tiles leaves in the output block: the quotient of the accumulators it leaves. -/
theorem outs_C4 (t : Fin cfg0.N) (h1 : t.val % 8 = 7) :
    (outsAt0 m c t.val t.isLt).1 = k0_pay2 (outsAt0 m c t.val t.isLt).2.2 (outsAt0 m c t.val t.isLt).2.1 := by
  have h0 : ¬t.val % 8 = 0 := by omega
  rw [outsAt0_C m c t h0 h1]
  dsimp only
  rw [sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
  exact oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- One tile's update of the row sums, over the whole arrays. -/
theorem stepL (t : Fin cfg0.N) (xs0 : Vec Ideal S1536x1 .f32) (r : Fin 1536) :
    k0_pay6 (F := Ideal) (grid0.coords t) (iblk m c 3 t) (iblk m c 0 t) (iblk m c 1 t) xs0 (ix2 r (0 : Fin 1))
      = xs0 (ix2 r (0 : Fin 1)) + ∑ p ∈ tile (t.val % 8), Wt (V m c main_v14) (V m c main_v15) (V m c main_v8) (rowIx t.val t.isLt r) p := by
  rw [pay6_apply, sum_tile]
  exact congrArg (xs0 (ix2 r (0 : Fin 1)) + ·) (Finset.sum_congr rfl fun l _ => wt_eq m c t r l)

/-- One tile's update of the products, over the whole arrays. -/
theorem stepA (t : Fin cfg0.N) (xs1 : Vec Ideal S1536x1024 .f32) (r : Fin 1536) (h : Fin 1024) :
    k0_pay1 (F := Ideal) xs1 (k0_pay7 (grid0.coords t) (iblk m c 2 t) (iblk m c 3 t) (iblk m c 0 t) (iblk m c 1 t)) (ix2 r h)
      = xs1 (ix2 r h) + ∑ p ∈ tile (t.val % 8), Wt (V m c main_v14) (V m c main_v15) (V m c main_v8) (rowIx t.val t.isLt r) p * V m c main_v9 (ix2 p h) := by
  rw [pay1_apply, pay7_apply, sum_tile]
  exact congrArg (xs1 (ix2 r h) + ·) (Finset.sum_congr rfl fun l _ => by rw [wt_eq m c t r l, blkH m c t l h])

/-- THE ACCUMULATORS IN CLOSED FORM after point n: sums over every position of the tiles 0 … n % 8. -/
theorem inv : ∀ (n : ℕ) (hn : n < cfg0.N),
    (∀ r : Fin 1536, (outsAt0 m c n hn).2.1 (ix2 r (0 : Fin 1)) = ∑ p ∈ upto (n % 8), Wt (V m c main_v14) (V m c main_v15) (V m c main_v8) (rowIx n hn r) p)
    ∧ (∀ (r : Fin 1536) (h : Fin 1024), (outsAt0 m c n hn).2.2 (ix2 r h)
        = ∑ p ∈ upto (n % 8), Wt (V m c main_v14) (V m c main_v15) (V m c main_v8) (rowIx n hn r) p * V m c main_v9 (ix2 p h)) := by
  intro n
  induction n with
  | zero =>
    intro hn
    obtain ⟨e1, e2⟩ := outs_A m c ⟨0, hn⟩ rfl
    refine ⟨fun r => ?_, fun r h => ?_⟩
    · rw [show (outsAt0 m c 0 hn).2.1 = _ from e1, stepL m c ⟨0, hn⟩, pay3_apply, zero_add]
      show ∑ p ∈ tile (0 % 8), _ = _
      rw [Nat.zero_mod, upto_zero]
    · rw [show (outsAt0 m c 0 hn).2.2 = _ from e2, stepA m c ⟨0, hn⟩, pay4_apply, zero_add]
      show ∑ p ∈ tile (0 % 8), _ = _
      rw [Nat.zero_mod, upto_zero]
  | succ k ih =>
    intro hn
    have hk : k < cfg0.N := Nat.lt_of_succ_lt hn
    obtain ⟨ihL, ihA⟩ := ih hk
    by_cases h0 : (k + 1) % 8 = 0
    · obtain ⟨e1, e2⟩ := outs_A m c ⟨k + 1, hn⟩ h0
      refine ⟨fun r => ?_, fun r h => ?_⟩
      · rw [show (outsAt0 m c (k + 1) hn).2.1 = _ from e1, stepL m c ⟨k + 1, hn⟩, pay3_apply, zero_add]
        show ∑ p ∈ tile ((k + 1) % 8), _ = _
        rw [h0, upto_zero]
      · rw [show (outsAt0 m c (k + 1) hn).2.2 = _ from e2, stepA m c ⟨k + 1, hn⟩, pay4_apply, zero_add]
        show ∑ p ∈ tile ((k + 1) % 8), _ = _
        rw [h0, upto_zero]
    · obtain ⟨e1, e2⟩ := outs_BC m c ⟨k + 1, hn⟩ h0
      have hm : (k + 1) % 8 = k % 8 + 1 := by omega
      have hrow : ∀ r, rowIx (k + 1) hn r = rowIx k hk r := fun r => Fin.ext (by
        show 1536 * ((k + 1) / 8) + r.val = 1536 * (k / 8) + r.val
        have : (k + 1) / 8 = k / 8 := by omega
        rw [this])
      refine ⟨fun r => ?_, fun r h => ?_⟩
      · rw [show (outsAt0 m c (k + 1) hn).2.1 = _ from e1, stepL m c ⟨k + 1, hn⟩]
        show (outsAt0 m c k _).2.1 (ix2 r (0 : Fin 1)) + ∑ p ∈ tile ((k + 1) % 8), Wt (V m c main_v14) (V m c main_v15) (V m c main_v8) (rowIx (k + 1) hn r) p = _
        rw [ihL r, hm, upto_succ, Finset.sum_union (disj _), hrow r]
      · rw [show (outsAt0 m c (k + 1) hn).2.2 = _ from e2, stepA m c ⟨k + 1, hn⟩]
        show (outsAt0 m c k _).2.2 (ix2 r h) + ∑ p ∈ tile ((k + 1) % 8), Wt (V m c main_v14) (V m c main_v15) (V m c main_v8) (rowIx (k + 1) hn r) p * V m c main_v9 (ix2 p h) = _
        rw [ihA r h, hm, upto_succ, Finset.sum_union (disj _), hrow r]

end Cert.KernelIdeal.Acc

end
-- ==== Proof.KFinal.lean ====
/-
  The kernel's result array.  The last point of each row of tiles writes its output block back: the quotient, entry
  by entry, of the product accumulator by the row sums, both now sums over every subword position.  The four blocks
  tile the padded result array, so the array ends as ONE function of the arrays the kernel was launched on; the
  program's result is the first 6000 rows of it.
-/
import proofs.«115173_j3444563771556_2_alg».proof.Proof.Gen.KernelIdeal.Frame
import proofs.«115173_j3444563771556_2_alg».proof.Proof.KAccum
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.KernelIdeal.Pay Cert.KernelIdeal.Acc Idealize.ShloMosaic.ValueIdx

variable (m : (ℓ : Loc nD τ sig) → Buf (Elt Ideal) ℓ) (ρ : Dev nD → PrngReg) (c : Dev nD)

/-- The pooled row of word `row` at hidden column `h`: the masked weights times the hidden column, summed over all
    subword positions, divided by the sum of the masked weights. -/
def pooled (ST EN : S6144x1.Idx → BitVec 32) (E : S1x8192.Idx → EReal) (HB : S8192x1024.Idx → EReal)
    (row : Fin 6144) (h : Fin 1024) : EReal :=
  Ideal.div (∑ p : Fin 8192, Wt ST EN E row p * HB (ix2 p h)) (∑ p : Fin 8192, Wt ST EN E row p)

/-- The padded result array as one function of the arrays the kernel was launched on. -/
def Gpad (ST EN : S6144x1.Idx → BitVec 32) (E : S1x8192.Idx → EReal) (HB : S8192x1024.Idx → EReal) :
    S6144x1024.Idx → EReal := fun j => pooled ST EN E HB (j 0) (j 1)

/-- The output block's entry from the two accumulators' entries. -/
theorem out_entry (X2 : Vec Ideal S1536x1024 .f32) (X1 : Vec Ideal S1536x1 .f32) (j : S1536x1024.Idx) :
    k0_pay2 (F := Ideal) X2 X1 j = Ideal.div (X2 (ix2 (j 0) (j 1))) (X1 (ix2 (j 0) (0 : Fin 1))) := by
  conv_lhs => rw [eq_ix2 j]
  exact pay2_apply X2 X1 (j 0) (j 1)

/-- WHAT A FLUSHING POINT WRITES BACK is its block of the padded result. -/
theorem flushed_eq (t : Fin cfg0.N) (hf : (cfg0.win 4).flush t = true) :
    (dats m 0 c).flushed 4 t = ((cfg0.win 4).blk t).view.read (Elt Ideal) (Gpad (V m c main_v14) (V m c main_v15) (V m c main_v8) (V m c main_v9)) := by
  have h7 : t.val % 8 = 7 := (flush0_4 t).mp hf
  obtain ⟨-, -, -, -, -, -, -, -, e0, e1, -⟩ := idx_facts t
  show (cfg0.win 4).cut (grid0.coords t) ((dats m 0 c).after 4 t) = _
  rw [after0_4, outs_C4 m c t h7]
  funext j
  have er : (((cfg0.win 4).blk t).view.emb j) 0 = rowIx t.val t.isLt (j 0) := Fin.ext (by
    show win0_4.index t (0 : Fin 2) * 1536 + 1 * (j 0).val = 1536 * (t.val / 8) + (j 0).val
    rw [e0]; omega)
  have ec : (((cfg0.win 4).blk t).view.emb j) 1 = j 1 := Fin.ext (by
    show win0_4.index t (1 : Fin 2) * 1024 + 1 * (j 1).val = (j 1).val
    rw [e1]; omega)
  show k0_pay2 (F := Ideal) (outsAt0 m c t.val t.isLt).2.2 (outsAt0 m c t.val t.isLt).2.1 j
      = pooled (V m c main_v14) (V m c main_v15) (V m c main_v8) (V m c main_v9) ((((cfg0.win 4).blk t).view.emb j) 0) ((((cfg0.win 4).blk t).view.emb j) 1)
  rw [er, ec, out_entry, (inv m c t.val t.isLt).1 (j 0), (inv m c t.val t.isLt).2 (j 0) (j 1), h7, upto_seven]
  rfl

/-- An index of the padded array is in point t's block iff each coordinate is in the block's range. -/
theorem mem_blk (t : Fin cfg0.N) (i : S6144x1024.Idx) :
    i ∈ ((cfg0.win 4).blk t).view.set ↔ ∀ a : Fin 2, win0_4.index t a * S1536x1024.size a ≤ (i a).val ∧ (i a).val < win0_4.index t a * S1536x1024.size a + S1536x1024.size a := by
  show i ∈ ((View.whole main_v16).slice (win0_4.rect t)).set ↔ _
  rw [View.set_slice_whole, Rect.mem_set_unit]
  exact Iff.rfl

/-- Every entry of the padded array is in the block of the last point of its row of tiles. -/
theorem cover (i : S6144x1024.Idx) :
    ∃ t : Fin cfg0.N, (cfg0.win 4).flush t = true ∧ i ∈ ((cfg0.win 4).blk t).view.set := by
  have hi0 : (i 0).val < 6144 := (i 0).isLt
  have hi1 : (i 1).val < 1024 := (i 1).isLt
  have hN := N32
  let t : Fin cfg0.N := ⟨8 * ((i 0).val / 1536) + 7, by omega⟩
  have ht : t.val = 8 * ((i 0).val / 1536) + 7 := rfl
  obtain ⟨-, -, -, -, -, -, -, -, e0, e1, -⟩ := idx_facts t
  refine ⟨t, (flush0_4 t).mpr (by omega), ?_⟩
  rw [mem_blk]
  intro a
  match a with
  | ⟨0, _⟩ => show win0_4.index t (0 : Fin 2) * 1536 ≤ (i 0).val ∧ (i 0).val < win0_4.index t (0 : Fin 2) * 1536 + 1536; rw [e0]; omega
  | ⟨1, _⟩ => show win0_4.index t (1 : Fin 2) * 1024 ≤ (i 1).val ∧ (i 1).val < win0_4.index t (1 : Fin 2) * 1024 + 1024; rw [e1]; omega

/-- THE PADDED RESULT ARRAY after the run. -/
theorem final : (dats m 0 c).arrAt 4 cfg0.N = Gpad (V m c main_v14) (V m c main_v15) (V m c main_v8) (V m c main_v9) :=
  (dats m 0 c).arrAt_eq_of_cover 4 (Gpad (V m c main_v14) (V m c main_v15) (V m c main_v8) (V m c main_v9)) (fun t hf => flushed_eq m c t hf) cover

/-- The program's result after the host's slice: the first 6000 rows of the padded result. -/
theorem tail : Pipeline.afterTail₀ cfgs (dats m) 0 (V0 m) [hostOps1] c main_v17
    = extractStridedSlice S6000x1024 ![0, 0] (Gpad (V m c main_v14) (V m c main_v15) (V m c main_v8) (V m c main_v9)) slices_S6144x1024_S6000x1024_0_0 := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = Gpad (V m c main_v14) (V m c main_v15) (V m c main_v8) (V m c main_v9) :=
    (Pipeline.withArrays_arr spec0 launch0.win.arr_inj c _ _ 4).trans (final m c)
  rw [e]

/-- THE RUN, READ: every weakly fair execution ends with the result at the first 6000 rows of the padded result
    array, the arguments unchanged. -/
theorem run : θ_run defs (onTc (τ := τ) (main (F := Ideal))) ⟨m, fun _ => 0, ρ⟩ fun r => ∀ c : Dev nD,
      r.2.mem ((c.tc : Thread nD τ).loc main_v17)
        = extractStridedSlice S6000x1024 ![0, 0] (Gpad (V m c main_v14) (V m c main_v15) (V m c main_v8) (V m c main_v9)) slices_S6144x1024_S6000x1024_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v17 (Pipeline.mem_restRefs_of main_v17 (by decide) (by decide))).trans (tail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Out

end
-- ==== Proof.SpanSpec.lean ====
/-
  Attention pooling of a word's subwords, over the extended reals: the law that joins the two programs.

  A word's span selects subwords j (a 0/1 mask, not all zero).  With finite scores S j, one program weights subword j
  by exp (S j - C) for a global finite shift C, sums weight × hidden entry over the span and divides by the sum of the
  weights; the other takes exp (S j - MX) for the row's own finite shift MX (minus infinity outside the span, whose
  exponential is zero), normalises each weight by the row's sum, and then sums weight × hidden entry.  A softmax does
  not depend on the shift: exp (S j - C) = exp (MX - C) · exp (S j - MX), the positive factor exp (MX - C) cancels
  between numerator and denominator, and a finite sum divided by a positive real is the sum of the quotients.  All
  of it happens among finite reals, so the extended reals' corners are never met: the span is not empty, hence both
  denominators are positive.
-/
import Idealize.ShloMosaic.PureOps.Ideal
import Idealize.ShloMosaic.Lib.ValueIdx

noncomputable section

namespace Cert.SpanSpec

open Idealize.ShloMosaic

/-- The coercion of a finite real sum is the sum of the coercions. -/
theorem coe_sum {J : Type} (s : Finset J) (f : J → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Softmax pooling does not depend on the shift, and normalising after the weighted sum is normalising before it. -/
theorem pool_eq {J : Type} [Fintype J] (mask : J → BitVec 1) (S H : J → EReal) (C MX z0 B : EReal)
    (hS : ∀ j, ∃ r : ℝ, S j = r) (hC : ∃ r : ℝ, C = r) (hMX : ∃ r : ℝ, MX = r) (hH : ∀ j, ∃ r : ℝ, H j = r)
    (hne : ∃ j, mask j = 1#1) (hz : z0 = 0) (hB : B = ⊥) :
    Ideal.div (∑ j, Scalar.select (mask j) (Ideal.exp (S j - C)) 0 * H j) (∑ j, Scalar.select (mask j) (Ideal.exp (S j - C)) 0)
      = ∑ j, Ideal.div (Ideal.exp (Scalar.select (mask j) (S j) B - MX))
          (z0 + ∑ j', Ideal.exp (Scalar.select (mask j') (S j') B - MX)) * H j := by
  classical
  choose σ hσ using hS
  obtain ⟨c, rfl⟩ := hC
  obtain ⟨mx, rfl⟩ := hMX
  choose η hη using hH
  subst hz hB
  obtain ⟨j0, hj0⟩ := hne
  let A : J → ℝ := fun j => if mask j = 1#1 then Real.exp (σ j - c) else 0
  let X : J → ℝ := fun j => if mask j = 1#1 then Real.exp (σ j - mx) else 0
  have ea : ∀ j, Scalar.select (mask j) (Ideal.exp (S j - (c : EReal))) 0 = (A j : EReal) := by
    intro j
    show (if mask j = 1 then Ideal.exp (S j - (c : EReal)) else 0) = ((if mask j = 1#1 then Real.exp (σ j - c) else 0 : ℝ) : EReal)
    rw [hσ j]
    by_cases hm : mask j = 1#1
    · have hm' : mask j = 1 := hm
      rw [if_pos hm', if_pos hm, ← EReal.coe_sub]; rfl
    · have hm' : ¬mask j = 1 := hm
      rw [if_neg hm', if_neg hm]; rfl
  have ex : ∀ j, Ideal.exp (Scalar.select (mask j) (S j) ⊥ - (mx : EReal)) = (X j : EReal) := by
    intro j
    show Ideal.exp ((if mask j = 1 then S j else ⊥) - (mx : EReal)) = ((if mask j = 1#1 then Real.exp (σ j - mx) else 0 : ℝ) : EReal)
    rw [hσ j]
    by_cases hm : mask j = 1#1
    · have hm' : mask j = 1 := hm
      rw [if_pos hm', if_pos hm, ← EReal.coe_sub]; rfl
    · have hm' : ¬mask j = 1 := hm
      rw [if_neg hm', if_neg hm, sub_eq_add_neg, EReal.bot_add]; rfl
  have hX0 : ∀ j, 0 ≤ X j := fun j => by
    show 0 ≤ (if mask j = 1#1 then Real.exp (σ j - mx) else 0)
    split_ifs
    · exact (Real.exp_pos _).le
    · exact le_refl _
  have hXp : 0 < ∑ j, X j :=
    Finset.sum_pos' (fun j _ => hX0 j) ⟨j0, Finset.mem_univ _, by
      show 0 < (if mask j0 = 1#1 then Real.exp (σ j0 - mx) else 0)
      rw [if_pos hj0]; exact Real.exp_pos _⟩
  have hκ : 0 < Real.exp (mx - c) := Real.exp_pos _
  have hAX : ∀ j, A j = Real.exp (mx - c) * X j := fun j => by
    show (if mask j = 1#1 then Real.exp (σ j - c) else 0) = Real.exp (mx - c) * (if mask j = 1#1 then Real.exp (σ j - mx) else 0)
    split_ifs
    · rw [← Real.exp_add]; congr 1; ring
    · rw [mul_zero]
  have hAp : (∑ j, A j) ≠ 0 := by
    have : ∑ j, A j = Real.exp (mx - c) * ∑ j, X j := by rw [Finset.mul_sum]; exact Finset.sum_congr rfl fun j _ => hAX j
    rw [this]; exact (mul_pos hκ hXp).ne'
  simp only [ea, ex, hη, zero_add]
  simp only [← EReal.coe_mul, ← coe_sum]
  rw [Ideal.div_coe hAp]
  simp only [Ideal.div_coe hXp.ne', ← EReal.coe_mul, ← coe_sum]
  rw [EReal.coe_eq_coe_iff]
  have e1 : ∑ j, A j * η j = Real.exp (mx - c) * ∑ j, X j * η j := by
    rw [Finset.mul_sum]; exact Finset.sum_congr rfl fun j _ => by rw [hAX j]; ring
  have e2 : ∑ j, A j = Real.exp (mx - c) * ∑ j, X j := by
    rw [Finset.mul_sum]; exact Finset.sum_congr rfl fun j _ => hAX j
  have e3 : ∑ j, X j * (1 / ∑ j', X j') * η j = (∑ j, X j * η j) * (1 / ∑ j', X j') := by
    rw [Finset.sum_mul]; exact Finset.sum_congr rfl fun j _ => by ring
  rw [e1, e2, e3]
  field_simp

end Cert.SpanSpec

end
-- ==== Proof.RefEntry.lean ====
/-
  The reference's result at one entry, over the extended reals.  For word w and hidden column h it is the sum over
  the subword positions k of (the softmax weight of k in row w) times the hidden entry (k, h); the softmax weight is
  exp (logit - row maximum) divided by the row's sum of those exponentials, where the logit of k is the subword's
  score inside the word's span and minus infinity outside.  Also: the scores are finite reals when the arguments are,
  and the row maximum is a finite real when the span holds a position.
-/
import proofs.«115173_j3444563771556_2_alg».proof.Proof.Gen.ReferenceIdeal.Read
import proofs.«115173_j3444563771556_2_alg».proof.Proof.SpanSpec
import Idealize.ShloMosaic.Lib.ValueIdx
import Idealize.ShloMosaic.PureOps.Ideal.Laws

set_option maxRecDepth 16384

noncomputable section

open Idealize.ShloMosaic Idealize.ShloMosaic.ValueIdx

namespace Cert.ReferenceIdeal.RefValue

open Cert.ReferenceIdeal Cert.ReferenceIdeal.Gen Cert.ReferenceIdeal.Read

variable (x0 : FVec Ideal S8192x1024 .f32) (x1 x2 : IVec S6000 32) (x3 : FVec Ideal S1024x1 .f32) (x4 : FVec Ideal S1 .f32)

/-- The score of subword k: its hidden row times the projection, plus the bias. -/
def score (k : Fin 8192) : EReal := val_main_v15 (F := Ideal) x0 x3 x4 (ix2 k (0 : Fin 1))
/-- The span test of word w at position k, as the reference computes it. -/
def mask (w : Fin 6000) (k : Fin 8192) : BitVec 1 := val_main_v11 (F := Ideal) x1 x2 (ix2 w k)
/-- The maximum the reference subtracts in row w. -/
def rowMax (w : Fin 6000) : EReal := val_main_v20 (F := Ideal) x0 x1 x2 x3 x4 (ix1 w)
/-- The exponential of the shifted logit at (w, k). -/
def ex (w : Fin 6000) (k : Fin 8192) : EReal :=
  Ideal.exp (Scalar.select (mask x1 x2 w k) (score x0 x3 x4 k) (Ideal.ofBits .f32 0xFF800000#32) - rowMax x0 x1 x2 x3 x4 w)

theorem v24_entry (w : Fin 6000) (k : Fin 8192) :
    val_main_v24 (F := Ideal) x0 x1 x2 x3 x4 (ix2 w k) = ex x0 x1 x2 x3 x4 w k := by
  rw [val_main_v24_apply, val_main_v23_apply, val_main_v17_apply, val_main_v22_apply, val_main_v21_apply,
    val_main_call0_v1_apply, val_main_v16_apply, val_main_call0_v2_apply]
  have i1 : idx_main_v21 (idx_main_v22 (ix2 w k)) = ix1 w := funext fun a => Fin.ext (by match a with | ⟨0, _⟩ => rfl)
  have i2 : idx_main_v16 (idx_main_call0_v1 (ix2 w k)) = ix2 k (0 : Fin 1) :=
    funext fun a => Fin.ext (by match a with | ⟨0, _⟩ => rfl | ⟨1, _⟩ => rfl)
  rw [i1, i2]
  rfl

theorem v28_entry (w : Fin 6000) (k : Fin 8192) :
    val_main_v28 (F := Ideal) x0 x1 x2 x3 x4 (ix2 w k)
      = Ideal.div (ex x0 x1 x2 x3 x4 w k) (Ideal.ofBits .f32 0x00000000#32 + ∑ k' : Fin 8192, ex x0 x1 x2 x3 x4 w k') := by
  rw [val_main_v28_apply, val_main_v27_apply, val_main_v26_apply]
  have i1 : idx_main_v26 (idx_main_v27 (ix2 w k)) = ix1 w := funext fun a => Fin.ext (by match a with | ⟨0, _⟩ => rfl)
  rw [i1, val_main_v25_apply, v24_entry]
  have i2 : ∀ k' : Fin 8192, idx_main_v25 (ix1 w) k' = ix2 w k' := fun k' =>
    funext fun a => Fin.ext (by match a with | ⟨0, _⟩ => rfl | ⟨1, _⟩ => rfl)
  simp only [i2, v24_entry]
  rfl

/-- THE REFERENCE'S RESULT at (w, h). -/
theorem v29_entry (w : Fin 6000) (h : Fin 1024) :
    val_main_v29 (F := Ideal) x0 x1 x2 x3 x4 (ix2 w h)
      = ∑ k : Fin 8192, Ideal.div (ex x0 x1 x2 x3 x4 w k) (Ideal.ofBits .f32 0x00000000#32 + ∑ k' : Fin 8192, ex x0 x1 x2 x3 x4 w k') * x0 (ix2 k h) := by
  rw [val_main_v29_apply]
  refine Finset.sum_congr rfl fun k _ => ?_
  have i1 : lidx_main_v29 (ix2 w h) k = ix2 w k := funext fun a => Fin.ext (by match a with | ⟨0, _⟩ => rfl | ⟨1, _⟩ => rfl)
  have i2 : ridx_main_v29 (ix2 w h) k = ix2 k h := funext fun a => Fin.ext (by match a with | ⟨0, _⟩ => rfl | ⟨1, _⟩ => rfl)
  rw [i1, i2, v28_entry]

/-- The span test in words: start ≤ position ≤ end, signed. -/
theorem mask_eq (w : Fin 6000) (k : Fin 8192) :
    mask x1 x2 w k = IntOp.andi (IntOp.cmpi .sge (BitVec.ofNat 32 k.val) (x1 (ix1 w))) (IntOp.cmpi .sle (BitVec.ofNat 32 k.val) (x2 (ix1 w))) := by
  unfold mask
  rw [val_main_v11_apply, val_main_v5_apply, val_main_v10_apply, val_main_v3_apply, val_main_v1_apply, val_main_v0_apply,
    val_main_v4_apply, val_main_v2_apply, val_main_v8_apply, val_main_v6_apply, val_main_v0_apply, val_main_v9_apply, val_main_v7_apply]
  have a1 : idx_main_v2 (idx_main_v4 (ix2 w k)) = ix1 w := funext fun a => Fin.ext (by match a with | ⟨0, _⟩ => rfl)
  have a2 : idx_main_v7 (idx_main_v9 (ix2 w k)) = ix1 w := funext fun a => Fin.ext (by match a with | ⟨0, _⟩ => rfl)
  rw [a1, a2]

/-! ## Finite values -/

theorem real_sum {J : Type} (s : Finset J) (f : J → EReal) (hf : ∀ j, ∃ r : ℝ, f j = r) : ∃ r : ℝ, ∑ j ∈ s, f j = r := by
  choose g hg using hf
  exact ⟨∑ j ∈ s, g j, by rw [Cert.SpanSpec.coe_sum]; exact Finset.sum_congr rfl fun j _ => hg j⟩

/-- Finite arguments give finite scores. -/
theorem score_real (h0 : ∀ i, ∃ r : ℝ, x0 i = r) (h3 : ∀ i, ∃ r : ℝ, x3 i = r) (h4 : ∀ i, ∃ r : ℝ, x4 i = r) (k : Fin 8192) :
    ∃ r : ℝ, score x0 x3 x4 k = r := by
  unfold score
  rw [val_main_v15_apply, val_main_v12_apply, val_main_v14_apply, val_main_v13_apply]
  obtain ⟨a, ha⟩ := real_sum Finset.univ (fun j : Fin 1024 => x0 (lidx_main_v12 (ix2 k (0 : Fin 1)) j) * x3 (ridx_main_v12 (ix2 k (0 : Fin 1)) j))
    (fun j => by
      obtain ⟨p, hp⟩ := h0 (lidx_main_v12 (ix2 k (0 : Fin 1)) j)
      obtain ⟨q, hq⟩ := h3 (ridx_main_v12 (ix2 k (0 : Fin 1)) j)
      exact ⟨p * q, by rw [hp, hq, EReal.coe_mul]⟩)
  obtain ⟨b, hb⟩ := h4 (idx_main_v13 (idx_main_v14 (ix2 k (0 : Fin 1))))
  refine ⟨a + b, ?_⟩
  show (∑ j : Fin 1024, _) + x4 _ = _
  rw [ha, hb, EReal.coe_add]

/-- A maximum from minus infinity over finitely many values, none plus infinity and one above minus infinity, is a real. -/
theorem fold_max_real {J : Type} (s : Finset J) (f : J → EReal) (hf : ∀ k ∈ s, f k ≠ ⊤) (hex : ∃ k ∈ s, f k ≠ ⊥) :
    ∃ r : ℝ, s.fold max ⊥ f = r := by
  have h1 : s.fold max ⊥ f < ⊤ := (Finset.fold_max_lt ⊤).2 ⟨bot_lt_top, fun k hk => lt_top_iff_ne_top.2 (hf k hk)⟩
  have h2 : ⊥ < s.fold max ⊥ f := by
    obtain ⟨k, hk, hne⟩ := hex
    exact (Finset.lt_fold_max ⊥).2 (Or.inr ⟨k, hk, bot_lt_iff_ne_bot.2 hne⟩)
  exact ⟨(s.fold max ⊥ f).toReal, (EReal.coe_toReal h1.ne h2.ne').symm⟩

theorem lift_pos (w : Fin 6000) (k : Fin 8192) (h : S6000x8192.Reduces [1] S6000) : h.lift (ix1 w) k = ix2 w k := by
  funext ax; apply Fin.ext
  match ax with
  | ⟨0, _⟩ => rfl
  | ⟨1, _⟩ => rfl

/-- With finite scores and a position in the span, the row maximum is a finite real. -/
theorem rowMax_real (hs : ∀ k, ∃ r : ℝ, score x0 x3 x4 k = r) (w : Fin 6000) (hne : ∃ k, mask x1 x2 w k = 1#1) :
    ∃ r : ℝ, rowMax x0 x1 x2 x3 x4 w = r := by
  have hbot : Ideal.ofBits .f32 0xFF800000#32 = ⊥ := by simp [Ideal.ofBits, Ideal.ieee]
  have hR : S6000x8192.Reduces [1] S6000 := by decide
  have hv : ∀ k : Fin 8192, val_main_v17 (F := Ideal) x0 x1 x2 x3 x4 (ix2 w k)
      = Scalar.select (mask x1 x2 w k) (score x0 x3 x4 k) ⊥ := fun k => by
    rw [val_main_v17_apply, val_main_call0_v1_apply, val_main_v16_apply, val_main_call0_v2_apply]
    have i2 : idx_main_v16 (idx_main_call0_v1 (ix2 w k)) = ix2 k (0 : Fin 1) :=
      funext fun a => Fin.ext (by match a with | ⟨0, _⟩ => rfl | ⟨1, _⟩ => rfl)
    rw [i2, ← hbot]
    rfl
  obtain ⟨r, hr⟩ := fold_max_real (Finset.univ : Finset (Fin 8192)) (fun k => val_main_v17 (F := Ideal) x0 x1 x2 x3 x4 (ix2 w k))
    (fun k _ => by
      rw [hv k]; unfold Scalar.select
      obtain ⟨q, hq⟩ := hs k
      split
      · rw [hq]; exact EReal.coe_ne_top q
      · exact bot_ne_top)
    (by
      obtain ⟨k, hk⟩ := hne
      refine ⟨k, Finset.mem_univ _, ?_⟩
      rw [hv k]; unfold Scalar.select
      obtain ⟨q, hq⟩ := hs k
      have hk' : mask x1 x2 w k = 1 := hk
      rw [if_pos hk', hq]; exact EReal.coe_ne_bot q)
  refine ⟨r, ?_⟩
  unfold rowMax
  rw [val_main_v20_apply, val_main_v19_apply]
  show max (Ideal.ofBits .f32 0xFF800000#32) (val_main_v18 (F := Ideal) x0 x1 x2 x3 x4 (ix1 w)) = _
  unfold val_main_v18
  rw [Host.reduce_eq_fold_single FloatOps.maximumf _ _ reducesTo_S6000x8192_S6000_d1 hR h_S_ (ix1 w), hbot, max_eq_right bot_le]
  show (Finset.univ : Finset (Fin 8192)).fold max (Ideal.ofBits .f32 0xFF800000#32) (fun k => val_main_v17 (F := Ideal) x0 x1 x2 x3 x4 (hR.lift (ix1 w) k)) = _
  have e : (fun k => val_main_v17 (F := Ideal) x0 x1 x2 x3 x4 (hR.lift (ix1 w) k)) = fun k => val_main_v17 (F := Ideal) x0 x1 x2 x3 x4 (ix2 w k) :=
    funext fun k => congrArg (val_main_v17 (F := Ideal) x0 x1 x2 x3 x4) (lift_pos w k hR)
  rw [hbot, e]
  exact hr

end Cert.ReferenceIdeal.RefValue

end
-- ==== Proof.PreFacts.lean ====
/-
  The precondition, decoded.  It says that every entry of the three float arrays is a finite real, and that every
  word's span is well formed: its start is at most its end, its start is at most the last subword position, and its
  end is not negative (signed comparisons of the 32-bit words).  A well-formed span holds a subword position: the
  larger of its start and zero.
-/
import proofs.«115173_j3444563771556_2_alg».proof.Pre_finite_inputs
import proofs.«115173_j3444563771556_2_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.PreFacts

open Cert.Pre_finite_inputs Cert.Pre_finite_inputs.Gen

instance : Subsingleton S_.Idx := ⟨fun a b => funext fun d => d.elim0⟩

/-- An extended real whose absolute value is below plus infinity is a real. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- THE PRECONDITION DECODED. -/
theorem decode (x0 : FVec Ideal S8192x1024 .f32) (x1 x2 : IVec S6000 32) (x3 : FVec Ideal S1024x1 .f32) (x4 : FVec Ideal S1 .f32)
    (h : fn (F := Ideal) x0 x1 x2 x3 x4 = fun _ => 1#1) :
    (∀ i, ∃ r : ℝ, x0 i = r) ∧ (∀ i, ∃ r : ℝ, x3 i = r) ∧ (∀ i, ∃ r : ℝ, x4 i = r)
      ∧ ∀ w : S6000.Idx, (x1 w).toInt ≤ (x2 w).toInt ∧ (x1 w).toInt ≤ 8191 ∧ 0 ≤ (x2 w).toInt := by
  have e := congrFun h ix0
  unfold fn fn_part1 at e
  dsimp only at e
  simp only [andi, IntOp.andi_eq_one] at e
  obtain ⟨⟨⟨⟨⟨e0, e3⟩, e4⟩, e12⟩, e1⟩, e2⟩ := e
  refine ⟨fun i => ?_, fun i => ?_, fun i => ?_, fun w => ⟨?_, ?_, ?_⟩⟩
  · exact real_of_abs_lt _ (Host.reduce_andi_all _ _ _ _ ix0 e0 i)
  · exact real_of_abs_lt _ (Host.reduce_andi_all _ _ _ _ ix0 e3 i)
  · exact real_of_abs_lt _ (Host.reduce_andi_all _ _ _ _ ix0 e4 i)
  · exact IntOp.cmpi_sle.1 (Host.reduce_andi_all _ _ _ _ ix0 e12 w)
  · have := IntOp.cmpi_sle.1 (Host.reduce_andi_all _ _ _ _ ix0 e1 w)
    exact this
  · have := IntOp.cmpi_sge.1 (Host.reduce_andi_all _ _ _ _ ix0 e2 w)
    exact this

end Cert.PreFacts

end
-- ==== Proof.Bridge.lean ====
/-
  The bridge: the kernel's result is the reference's, entry by entry, over the extended reals.

  The arrays the kernel is launched on are host terms of the arguments: the hidden states themselves (a change of
  float format is the identity), the word starts and ends padded with sentinel rows, and the per-subword weights
  exp (score - global maximum), the scores being the very array the reference computes.  So the kernel's pooled entry
  (w, h) is the quotient of two sums of masked weights, the reference's entry the sum of normalised masked weights
  times hidden entries, and the two are joined by the shift invariance of the softmax.  The finiteness of the
  arguments makes the scores and both shifts finite reals; the span of a word holds the position max(start, 0),
  which makes both denominators positive.
-/
import proofs.«115173_j3444563771556_2_alg».proof.Proof.KFinal
import proofs.«115173_j3444563771556_2_alg».proof.Proof.RefEntry
import proofs.«115173_j3444563771556_2_alg».proof.Proof.PreFacts
import proofs.«115173_j3444563771556_2_alg».proof.Proof.SpanSpec
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.Bridge

open Cert.KernelIdeal.Gen Cert.KernelIdeal.Pay Cert.KernelIdeal.Acc Cert.KernelIdeal.Out Cert.ReferenceIdeal.RefValue

variable (x0 : FVec Ideal Cert.KernelIdeal.S8192x1024 .f32) (x1 x2 : IVec Cert.KernelIdeal.S6000 32) (x3 : FVec Ideal Cert.KernelIdeal.S1024x1 .f32) (x4 : FVec Ideal Cert.KernelIdeal.S1 .f32)

/-- The global shift: the maximum of all the scores, from minus infinity. -/
def cmax (x0 : FVec Ideal Cert.KernelIdeal.S8192x1024 .f32) (x3 : FVec Ideal Cert.KernelIdeal.S1024x1 .f32) (x4 : FVec Ideal Cert.KernelIdeal.S1 .f32) : EReal :=
  Host.reduce (FloatOps.maximumf (F := Ideal) (φ := .f32)) (Cert.ReferenceIdeal.Read.val_main_v15 (F := Ideal) x0 x3 x4) (constant (F := Ideal) Cert.KernelIdeal.S_ .f32 0xFF800000#32)
    Cert.KernelIdeal.Gen.reducesTo_S8192x1_S_d0_1 Cert.KernelIdeal.Gen.h_S_ (fun a => a.elim0)

theorem bot_word : Ideal.ofBits .f32 0xFF800000#32 = ⊥ := by simp [Ideal.ofBits, Ideal.ieee]

/-- With finite scores the global shift is a finite real. -/
theorem cmax_real (hs : ∀ k, ∃ r : ℝ, score x0 x3 x4 k = r) : ∃ r : ℝ, cmax x0 x3 x4 = r := by
  unfold cmax
  rw [Host.reduce_eq_fold]
  show ∃ r : ℝ, (Finset.univ.filter fun i => _ = _).fold max (Ideal.ofBits .f32 0xFF800000#32) _ = r
  rw [bot_word]
  have hv : ∀ i : Cert.KernelIdeal.S8192x1.Idx, ∃ r : ℝ, Cert.ReferenceIdeal.Read.val_main_v15 (F := Ideal) x0 x3 x4 i = r := fun i => by
    have : i = ix2 (i 0) (0 : Fin 1) := by
      rw [eq_ix2 i]; congr 1
      exact Fin.ext (by have h1 : (i 1).val < 1 := (i 1).isLt; show (i 1).val = 0; omega)
    rw [this]; exact hs (i 0)
  refine fold_max_real _ _ (fun i _ => ?_) ⟨ix2 (0 : Fin 8192) (0 : Fin 1), ?_, ?_⟩
  · obtain ⟨r, hr⟩ := hv i; rw [hr]; exact EReal.coe_ne_top r
  · rw [Finset.mem_filter]; exact ⟨Finset.mem_univ _, funext fun a => a.elim0⟩
  · obtain ⟨r, hr⟩ := hv (ix2 (0 : Fin 8192) (0 : Fin 1)); rw [hr]; exact EReal.coe_ne_bot r

/-- The exponential of an array minus a broadcast scalar, read at a row. -/
theorem exp_sub_bcast (S : Cert.KernelIdeal.S8192x1.Idx → EReal) (cm : Cert.KernelIdeal.S_.Idx → EReal) (p : Fin 8192) :
    Host.exp (F := Ideal) (φ := .f32) (subf S (broadcastInDim Cert.KernelIdeal.S8192x1 ![] Cert.KernelIdeal.Gen.bcast_S_S8192x1 cm)) (ix2 p (0 : Fin 1))
      = Ideal.exp (S (ix2 p (0 : Fin 1)) - cm (fun a => a.elim0)) := by
  show Ideal.exp (S (ix2 p (0 : Fin 1)) - broadcastInDim Cert.KernelIdeal.S8192x1 ![] Cert.KernelIdeal.Gen.bcast_S_S8192x1 cm (ix2 p (0 : Fin 1))) = _
  rw [broadcastInDim_apply _ Cert.KernelIdeal.Gen.bcast_S_S8192x1 cm (ix2 p (0 : Fin 1)) (fun a => a.elim0) (fun a => a.elim0)]

section Launch

variable (m : (ℓ : Loc Cert.KernelIdeal.nD Cert.KernelIdeal.τ Cert.KernelIdeal.sig) → Buf (Elt Ideal) ℓ) (c : Dev Cert.KernelIdeal.nD)

/-- The hidden states the kernel is launched on are the argument's. -/
theorem V9_eq : (V m c Cert.KernelIdeal.main_v9 : Cert.KernelIdeal.S8192x1024.Idx → EReal) = (m ((c.tc : Thread Cert.KernelIdeal.nD Cert.KernelIdeal.τ).loc Cert.KernelIdeal.main_arg0)) := by
  show StableHlo.after hostOps0 (fun b => m (c, b)) (Proc.devRef .tc Cert.KernelIdeal.main_v9) = _
  after_results
  rfl

/-- The padded starts hold the argument's starts in their first 6000 rows. -/
theorem V14_entry (w : Fin 6000) :
    (V m c Cert.KernelIdeal.main_v14 : Cert.KernelIdeal.S6144x1.Idx → BitVec 32) (ix2 (⟨w.val, by have := w.isLt; omega⟩ : Fin 6144) (0 : Fin 1)) = (m ((c.tc : Thread Cert.KernelIdeal.nD Cert.KernelIdeal.τ).loc Cert.KernelIdeal.main_arg1)) (ix1 w) := by
  have e : (V m c Cert.KernelIdeal.main_v14 : Cert.KernelIdeal.S6144x1.Idx → BitVec 32)
      = shapeCast Cert.KernelIdeal.S6144x1 (concatenate Cert.KernelIdeal.S6144 0 [⟨Cert.KernelIdeal.S6000, (m ((c.tc : Thread Cert.KernelIdeal.nD Cert.KernelIdeal.τ).loc Cert.KernelIdeal.main_arg1))⟩, ⟨Cert.KernelIdeal.S144, broadcastInDim Cert.KernelIdeal.S144 ![] Cert.KernelIdeal.Gen.bcast_S_S144 (constantI Cert.KernelIdeal.S_ 32 8192#32)⟩] Cert.KernelIdeal.Gen.concatenates_S6000_S144_S6144_d0) Cert.KernelIdeal.Gen.shapeCasts_S6144_S6144x1 := by
    show StableHlo.after hostOps0 (fun b => m (c, b)) (Proc.devRef .tc Cert.KernelIdeal.main_v14) = _
    after_results
    rfl
  rw [e]
  refine (shapeCast_apply _ _ _ (ix1 (⟨w.val, by have := w.isLt; omega⟩ : Fin 6144)) ?_).trans ?_
  · rw [Shape.rowMajor_val_one, Shape.rowMajor_val_two]; show w.val = w.val * 1 + 0; omega
  · exact concatenate_pair_apply_left (t := Cert.KernelIdeal.S6144) (s₁ := Cert.KernelIdeal.S6000) (s₂ := Cert.KernelIdeal.S144) (0 : Fin 1) _ _ Cert.KernelIdeal.Gen.concatenates_S6000_S144_S6144_d0 (ix1 (⟨w.val, by have := w.isLt; omega⟩ : Fin 6144)) rfl (ix1 w) (fun b => by match b with | ⟨0, _⟩ => rfl)

/-- The padded ends hold the argument's ends in their first 6000 rows. -/
theorem V15_entry (w : Fin 6000) :
    (V m c Cert.KernelIdeal.main_v15 : Cert.KernelIdeal.S6144x1.Idx → BitVec 32) (ix2 (⟨w.val, by have := w.isLt; omega⟩ : Fin 6144) (0 : Fin 1)) = (m ((c.tc : Thread Cert.KernelIdeal.nD Cert.KernelIdeal.τ).loc Cert.KernelIdeal.main_arg2)) (ix1 w) := by
  have e : (V m c Cert.KernelIdeal.main_v15 : Cert.KernelIdeal.S6144x1.Idx → BitVec 32)
      = shapeCast Cert.KernelIdeal.S6144x1 (concatenate Cert.KernelIdeal.S6144 0 [⟨Cert.KernelIdeal.S6000, (m ((c.tc : Thread Cert.KernelIdeal.nD Cert.KernelIdeal.τ).loc Cert.KernelIdeal.main_arg2))⟩, ⟨Cert.KernelIdeal.S144, broadcastInDim Cert.KernelIdeal.S144 ![] Cert.KernelIdeal.Gen.bcast_S_S144 (constantI Cert.KernelIdeal.S_ 32 8191#32)⟩] Cert.KernelIdeal.Gen.concatenates_S6000_S144_S6144_d0) Cert.KernelIdeal.Gen.shapeCasts_S6144_S6144x1 := by
    show StableHlo.after hostOps0 (fun b => m (c, b)) (Proc.devRef .tc Cert.KernelIdeal.main_v15) = _
    after_results
    rfl
  rw [e]
  refine (shapeCast_apply _ _ _ (ix1 (⟨w.val, by have := w.isLt; omega⟩ : Fin 6144)) ?_).trans ?_
  · rw [Shape.rowMajor_val_one, Shape.rowMajor_val_two]; show w.val = w.val * 1 + 0; omega
  · exact concatenate_pair_apply_left (t := Cert.KernelIdeal.S6144) (s₁ := Cert.KernelIdeal.S6000) (s₂ := Cert.KernelIdeal.S144) (0 : Fin 1) _ _ Cert.KernelIdeal.Gen.concatenates_S6000_S144_S6144_d0 (ix1 (⟨w.val, by have := w.isLt; omega⟩ : Fin 6144)) rfl (ix1 w) (fun b => by match b with | ⟨0, _⟩ => rfl)

/-- The per-subword weight the kernel is launched on: exp (score - global maximum). -/
theorem V8_entry (p : Fin 8192) :
    (V m c Cert.KernelIdeal.main_v8 : Cert.KernelIdeal.S1x8192.Idx → EReal) (ix2 (0 : Fin 1) p)
      = Ideal.exp (score (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) p - cmax (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) := by
  have e : (V m c Cert.KernelIdeal.main_v8 : Cert.KernelIdeal.S1x8192.Idx → EReal)
      = shapeCast Cert.KernelIdeal.S1x8192 (Host.exp (F := Ideal) (subf (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
          (broadcastInDim Cert.KernelIdeal.S8192x1 ![] Cert.KernelIdeal.Gen.bcast_S_S8192x1
            (Host.reduce FloatOps.maximumf (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (constant (F := Ideal) Cert.KernelIdeal.S_ .f32 0xFF800000#32)
              Cert.KernelIdeal.Gen.reducesTo_S8192x1_S_d0_1 Cert.KernelIdeal.Gen.h_S_)))) Cert.KernelIdeal.Gen.shapeCasts_S8192x1_S1x8192 := by
    show StableHlo.after hostOps0 (fun b => m (c, b)) (Proc.devRef .tc Cert.KernelIdeal.main_v8) = _
    after_results
    rfl
  rw [e]
  refine (shapeCast_apply _ _ _ (ix2 p (0 : Fin 1)) ?_).trans ?_
  · rw [Shape.rowMajor_val_two, Shape.rowMajor_val_two]; show p.val * 1 + 0 = 0 * 8192 + p.val; omega
  · exact exp_sub_bcast _ _ p

/-- The masked weight over the launched arrays, in the reference's words. -/
theorem Wt_entry (w : Fin 6000) (p : Fin 8192) :
    Wt (V m c Cert.KernelIdeal.main_v14) (V m c Cert.KernelIdeal.main_v15) (V m c Cert.KernelIdeal.main_v8) (⟨w.val, by have := w.isLt; omega⟩ : Fin 6144) p
      = Scalar.select (mask (m ((c.tc : Thread Cert.KernelIdeal.nD Cert.KernelIdeal.τ).loc Cert.KernelIdeal.main_arg1)) (m ((c.tc : Thread Cert.KernelIdeal.nD Cert.KernelIdeal.τ).loc Cert.KernelIdeal.main_arg2)) w p) (Ideal.exp (score (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) p - cmax (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))) 0 := by
  unfold Wt
  rw [V14_entry m c w, V15_entry m c w, V8_entry m c p, mask_eq]
  rfl

end Launch

/-- A well-formed span holds a subword position: the larger of its start and zero. -/
theorem span_nonempty (s e : BitVec 32) (h1 : s.toInt ≤ e.toInt) (h2 : s.toInt ≤ 8191) (h3 : 0 ≤ e.toInt) :
    ∃ k : Fin 8192, IntOp.andi (IntOp.cmpi .sge (BitVec.ofNat 32 k.val) s) (IntOp.cmpi .sle (BitVec.ofNat 32 k.val) e) = 1#1 := by
  have hk : (max s.toInt 0).toNat < 8192 := by omega
  refine ⟨⟨(max s.toInt 0).toNat, hk⟩, ?_⟩
  have ht : (BitVec.ofNat 32 (max s.toInt 0).toNat).toInt = ((max s.toInt 0).toNat : ℤ) := by
    rw [BitVec.toInt_ofNat']; exact Int.bmod_eq_of_le (by omega) (by omega)
  rw [IntOp.andi_eq_one, IntOp.cmpi_sge, IntOp.cmpi_sle]
  show s.toInt ≤ (BitVec.ofNat 32 (max s.toInt 0).toNat).toInt ∧ (BitVec.ofNat 32 (max s.toInt 0).toNat).toInt ≤ e.toInt
  rw [ht]
  constructor <;> omega

section Join

variable (m : (ℓ : Loc Cert.KernelIdeal.nD Cert.KernelIdeal.τ Cert.KernelIdeal.sig) → Buf (Elt Ideal) ℓ) (c : Dev Cert.KernelIdeal.nD)

/-- THE TWO RESULTS AGREE at every entry, under the precondition. -/
theorem entry_eq
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1)
    (w : Fin 6000) (h : Fin 1024) :
    extractStridedSlice Cert.KernelIdeal.S6000x1024 ![0, 0] (Gpad (V m c Cert.KernelIdeal.main_v14) (V m c Cert.KernelIdeal.main_v15) (V m c Cert.KernelIdeal.main_v8) (V m c Cert.KernelIdeal.main_v9)) Cert.KernelIdeal.Gen.slices_S6144x1024_S6000x1024_0_0 (ix2 w h)
      = Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 w h) := by
  obtain ⟨h0, h3, h4, hsp⟩ := Cert.PreFacts.decode _ _ _ _ _ hpre
  have hs := score_real (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) h0 h3 h4
  have hne : ∃ k, mask (m ((c.tc : Thread Cert.KernelIdeal.nD Cert.KernelIdeal.τ).loc Cert.KernelIdeal.main_arg1)) (m ((c.tc : Thread Cert.KernelIdeal.nD Cert.KernelIdeal.τ).loc Cert.KernelIdeal.main_arg2)) w k = 1#1 := by
    obtain ⟨e1, e2, e3⟩ := hsp (ix1 w)
    obtain ⟨k, hk⟩ := span_nonempty _ _ e1 e2 e3
    exact ⟨k, by rw [mask_eq]; exact hk⟩
  rw [extractStridedSlice_apply _ _ _ (ix2 w h) (ix2 (⟨w.val, by have := w.isLt; omega⟩ : Fin 6144) h) (fun a => by
    match a with
    | ⟨0, _⟩ => show w.val = 0 + w.val; omega
    | ⟨1, _⟩ => show h.val = 0 + h.val; omega)]
  rw [v29_entry]
  show pooled (V m c Cert.KernelIdeal.main_v14) (V m c Cert.KernelIdeal.main_v15) (V m c Cert.KernelIdeal.main_v8) (V m c Cert.KernelIdeal.main_v9) (⟨w.val, by have := w.isLt; omega⟩ : Fin 6144) h = _
  unfold pooled
  simp only [Wt_entry m c w, V9_eq m c]
  exact Cert.SpanSpec.pool_eq (mask (m ((c.tc : Thread Cert.KernelIdeal.nD Cert.KernelIdeal.τ).loc Cert.KernelIdeal.main_arg1)) (m ((c.tc : Thread Cert.KernelIdeal.nD Cert.KernelIdeal.τ).loc Cert.KernelIdeal.main_arg2)) w) (score (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (fun k => (m ((c.tc : Thread Cert.KernelIdeal.nD Cert.KernelIdeal.τ).loc Cert.KernelIdeal.main_arg0)) (ix2 k h))
    (cmax (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (rowMax (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) w) (Ideal.ofBits .f32 0x00000000#32) (Ideal.ofBits .f32 0xFF800000#32)
    hs (cmax_real _ _ _ hs) (rowMax_real _ _ _ _ _ hs w hne) (fun k => h0 _) hne Ideal.ofBits_zero_f32 bot_word

/-- So the kernel's result array is the reference's stage of the same arguments. -/
theorem result_eq
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    extractStridedSlice Cert.KernelIdeal.S6000x1024 ![0, 0] (Gpad (V m c Cert.KernelIdeal.main_v14) (V m c Cert.KernelIdeal.main_v15) (V m c Cert.KernelIdeal.main_v8) (V m c Cert.KernelIdeal.main_v9)) Cert.KernelIdeal.Gen.slices_S6144x1024_S6000x1024_0_0
      = Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext j
  rw [eq_ix2 j]
  exact entry_eq m c hpre (j 0) (j 1)

end Join

end Cert.Bridge

end
-- ==== Proof.lean ====
/-
  Attention pooling of subwords into words: a tiled kernel against its jnp reference, over the extended reals.

  For each of 6000 words with an inclusive span [start, end] of subword positions, the result row is the
  softmax-weighted average of the hidden rows of the span's subwords, the weight of subword j being its score
  hidden_j · w + b.  The reference masks the scores with minus infinity outside the span, takes a row-wise softmax and
  multiplies by the hidden states.  The kernel computes exp (score - global maximum) once per subword on the host, and
  on a 4 × 8 grid of (1536-word, 1024-subword) tiles accumulates, per word, the sum of the masked weights and the sum of
  masked weight × hidden row, dividing the second by the first at the last subword tile; the words are padded to 6144
  rows and the padding is sliced away.

  The frames are the generated ones.  The idealization rewrote nothing.  The equivalence: the two accumulators after
  each grid point are sums over the subword positions met so far (induction on the point); the four output blocks tile
  the padded result; the launched arrays are host terms of the arguments; and the two closed forms are joined by the
  shift invariance of the softmax among finite reals.  The precondition gives the finiteness, and that every word's
  span holds a position (start ≤ end, start ≤ 8191, 0 ≤ end), which keeps both denominators positive.
-/
import proofs.«115173_j3444563771556_2_alg».proof.Defs
import proofs.«115173_j3444563771556_2_alg».proof.Proof.Gen.Kernel
import proofs.«115173_j3444563771556_2_alg».proof.Proof.Gen.Kernel.Skeleton
import proofs.«115173_j3444563771556_2_alg».proof.Proof.Gen.Kernel.Launch
import proofs.«115173_j3444563771556_2_alg».proof.Proof.Gen.Kernel.Points
import proofs.«115173_j3444563771556_2_alg».proof.Proof.Gen.Kernel.Frame
import proofs.«115173_j3444563771556_2_alg».proof.Proof.Gen.KernelIdeal
import proofs.«115173_j3444563771556_2_alg».proof.Proof.Gen.KernelIdeal.Skeleton
import proofs.«115173_j3444563771556_2_alg».proof.Proof.Gen.KernelIdeal.Launch
import proofs.«115173_j3444563771556_2_alg».proof.Proof.Gen.KernelIdeal.Points
import proofs.«115173_j3444563771556_2_alg».proof.Proof.Gen.KernelIdeal.Frame
import proofs.«115173_j3444563771556_2_alg».proof.Proof.Gen.ReferenceIdeal
import proofs.«115173_j3444563771556_2_alg».proof.Proof.Gen.ReferenceIdeal.Run
import proofs.«115173_j3444563771556_2_alg».proof.Proof.Gen.ReferenceIdeal.Read
import proofs.«115173_j3444563771556_2_alg».proof.Proof.Gen.Pre_finite_inputs
import proofs.«115173_j3444563771556_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run, and end with the pooled word embeddings: the kernel's first 6000 rows of its padded result are
    the reference's last stage of the same arguments. -/
theorem algebraic : Cert.algebraic_KernelIdeal_ReferenceIdeal := by
  intro m ρ m' ρ' hpre hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1, (hagree c).2.2.2.2]
  have e := Cert.Bridge.result_eq m c (hpre c)
  beta_reduce
  rw [e]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
